-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400000x256 : Shape := ⟨2, ![400000, 256]⟩
abbrev S400000 : Shape := ⟨1, ![400000]⟩
abbrev S256x256 : Shape := ⟨2, ![256, 256]⟩
abbrev S256x64 : Shape := ⟨2, ![256, 64]⟩
abbrev S64x32 : Shape := ⟨2, ![64, 32]⟩
abbrev S_ : Shape := ⟨0, ![]⟩

class Facts : Prop where
  bcast_S_S400000x256 : S_.BroadcastsInDim S400000x256 (![] : Fin 0 → Fin S400000x256.rank)
  reducesTo_S400000x256_S_d0_1 : S400000x256.ReducesTo [0, 1] S_
  h_S_ : 0 < S_.numel
  bcast_S_S400000 : S_.BroadcastsInDim S400000 (![] : Fin 0 → Fin S400000.rank)
  reducesTo_S400000_S_d0 : S400000.ReducesTo [0] S_
  bcast_S_S256x256 : S_.BroadcastsInDim S256x256 (![] : Fin 0 → Fin S256x256.rank)
  reducesTo_S256x256_S_d0_1 : S256x256.ReducesTo [0, 1] S_
  bcast_S_S256x64 : S_.BroadcastsInDim S256x64 (![] : Fin 0 → Fin S256x64.rank)
  reducesTo_S256x64_S_d0_1 : S256x64.ReducesTo [0, 1] S_
  bcast_S_S64x32 : S_.BroadcastsInDim S64x32 (![] : Fin 0 → Fin S64x32.rank)
  reducesTo_S64x32_S_d0_1 : S64x32.ReducesTo [0, 1] S_

variable [Facts]

def fn_part2 {F : FTy → Type} [FloatOps F] (main_arg9 : FVec F S64x32 .f32) (main_v33 : IVec S_ 1) : IVec S_ 1 :=
  let main_v34 : FVec F S64x32 .f32 := Host.absf main_arg9
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  main_v38

def fn_part1 {F : FTy → Type} [FloatOps F] (main_arg6 : FVec F S256x256 .f32) (main_arg7 : FVec F S256x64 .f32) (main_arg8 : FVec F S64x32 .f32) (main_arg9 : FVec F S64x32 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x64 .f32 := Host.absf main_arg7
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64x32 .f32 := Host.absf main_arg8
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg9 main_v33

def fn {F : FTy → Type} [FloatOps F] (main_arg0 : FVec F S400000x256 .f32) (main_arg1 : FVec F S400000x256 .f32) (main_arg2 : FVec F S400000 .f32) (main_arg3 : IVec S400000 32) (main_arg4 : IVec S400000 32) (main_arg5 : FVec F S256x256 .f32) (main_arg6 : FVec F S256x256 .f32) (main_arg7 : FVec F S256x64 .f32) (main_arg8 : FVec F S64x32 .f32) (main_arg9 : FVec F S64x32 .f32) : IVec S_ 1 :=
  let main_v0 : FVec F S400000x256 .f32 := Host.absf main_arg0
  let main_cst : FVec F S_ .f32 := constant S_ .f32 0x7F800000#32
  let main_v1 : FVec F S400000x256 .f32 := broadcastInDim S400000x256 ![] bcast_S_S400000x256 main_cst
  let main_v2 : IVec S400000x256 1 := cmpf .olt main_v0 main_v1
  let main_c : IVec S_ 1 := constantI S_ 1 1#1
  let main_v3 : IVec S_ 1 := (fun x v => Host.reduce IntOp.andi x v reducesTo_S400000x256_S_d0_1 h_S_) main_v2 main_c
  let main_v4 : FVec F S400000x256 .f32 := Host.absf main_arg1
  let main_cst_0 : FVec F S_ .f32 := constant S_ .f32 0x7F800000#32
  let main_v5 : FVec F S400000x256 .f32 := broadcastInDim S400000x256 ![] bcast_S_S400000x256 main_cst_0
  let main_v6 : IVec S400000x256 1 := cmpf .olt main_v4 main_v5
  let main_c_1 : IVec S_ 1 := constantI S_ 1 1#1
  let main_v7 : IVec S_ 1 := (fun x v => Host.reduce IntOp.andi x v reducesTo_S400000x256_S_d0_1 h_S_) main_v6 main_c_1
  let main_v8 : IVec S_ 1 := andi main_v3 main_v7
  let main_v9 : FVec F S400000 .f32 := Host.absf main_arg2
  let main_cst_2 : FVec F S_ .f32 := constant S_ .f32 0x7F800000#32
  let main_v10 : FVec F S400000 .f32 := broadcastInDim S400000 ![] bcast_S_S400000 main_cst_2
  let main_v11 : IVec S400000 1 := cmpf .olt main_v9 main_v10
  let main_c_3 : IVec S_ 1 := constantI S_ 1 1#1
  let main_v12 : IVec S_ 1 := (fun x v => Host.reduce IntOp.andi x v reducesTo_S400000_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_v13 main_v16
-- ==== Kernel.lean ====
abbrev S400000x256 : Shape := ⟨2, ![400000, 256]⟩
abbrev S400000 : Shape := ⟨1, ![400000]⟩
abbrev S256x256 : Shape := ⟨2, ![256, 256]⟩
abbrev S256x64 : Shape := ⟨2, ![256, 64]⟩
abbrev S64x32 : Shape := ⟨2, ![64, 32]⟩
abbrev S400000x1 : Shape := ⟨2, ![400000, 1]⟩
abbrev S400000x64 : Shape := ⟨2, ![400000, 64]⟩
abbrev S3200x256 : Shape := ⟨2, ![3200, 256]⟩
abbrev S3200x1 : Shape := ⟨2, ![3200, 1]⟩
abbrev S3200x64 : Shape := ⟨2, ![3200, 64]⟩
abbrev S3200x32 : Shape := ⟨2, ![3200, 32]⟩
abbrev S3200 : Shape := ⟨1, ![3200]⟩
abbrev S_ : Shape := ⟨0, ![]⟩
abbrev S25000x64 : Shape := ⟨2, ![25000, 64]⟩

abbrev nBuf : Space → Nat
  | .hbm => 21
  | .vmem => 13
  | .smem => 0
  | _ => 0

abbrev bufTy : (tb : Table) → Fin (tcTables nBuf tb) → BufTy
  | .hbm, ⟨0, _⟩ => ⟨S400000x256, .f32⟩
  | .hbm, ⟨1, _⟩ => ⟨S400000x256, .f32⟩
  | .hbm, ⟨2, _⟩ => ⟨S400000, .f32⟩
  | .hbm, ⟨3, _⟩ => ⟨S400000, .i32⟩
  | .hbm, ⟨4, _⟩ => ⟨S400000, .i32⟩
  | .hbm, ⟨5, _⟩ => ⟨S256x256, .f32⟩
  | .hbm, ⟨6, _⟩ => ⟨S256x256, .f32⟩
  | .hbm, ⟨7, _⟩ => ⟨S256x64, .f32⟩
  | .hbm, ⟨8, _⟩ => ⟨S64x32, .f32⟩
  | .hbm, ⟨9, _⟩ => ⟨S64x32, .f32⟩
  | .hbm, ⟨10, _⟩ => ⟨S400000x1, .f32⟩
  | .hbm, ⟨11, _⟩ => ⟨S256x256, .bf16⟩
  | .hbm, ⟨12, _⟩ => ⟨S256x256, .bf16⟩
  | .hbm, ⟨13, _⟩ => ⟨S256x64, .bf16⟩
  | .hbm, ⟨14, _⟩ => ⟨S64x32, .bf16⟩
  | .hbm, ⟨15, _⟩ => ⟨S64x32, .bf16⟩
  | .hbm, ⟨16, _⟩ => ⟨S400000x64, .f32⟩
  | .hbm, ⟨17, _⟩ => ⟨S_, .f32⟩
  | .hbm, ⟨18, _⟩ => ⟨S25000x64, .f32⟩
  | .hbm, ⟨19, _⟩ => ⟨S400000x1, .i32⟩
  | .hbm, ⟨20, _⟩ => ⟨S25000x64, .f32⟩
  | .local _ .vmem, ⟨0, _⟩ => ⟨S3200x256, .f32⟩
  | .local _ .vmem, ⟨1, _⟩ => ⟨S3200x256, .f32⟩
  | .local _ .vmem, ⟨2, _⟩ => ⟨S3200x256, .f32⟩
  | .local _ .vmem, ⟨3, _⟩ => ⟨S3200x256, .f32⟩
  | .local _ .vmem, ⟨4, _⟩ => ⟨S3200x1, .f32⟩
  | .local _ .vmem, ⟨5, _⟩ => ⟨S3200x1, .f32⟩
  | .local _ .vmem, ⟨6, _⟩ => ⟨S256x256, .bf16⟩
  | .local _ .vmem, ⟨7, _⟩ => ⟨S256x256, .bf16⟩
  | .local _ .vmem, ⟨8, _⟩ => ⟨S256x64, .bf16⟩
  | .local _ .vmem, ⟨9, _⟩ => ⟨S64x32, .bf16⟩
  | .local _ .vmem, ⟨10, _⟩ => ⟨S64x32, .bf16⟩
  | .local _ .vmem, ⟨11, _⟩ => ⟨S3200x64, .f32⟩
  | .local _ .vmem, ⟨12, _⟩ => ⟨S3200x64, .f32⟩
  | _, _ => ⟨S400000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x32 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S3200x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S400000_S400000x1 : S400000.ShapeCasts S400000x1
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S3200x256_S3200x256_0_0 : ∀ a, (![0, 0] : Fin 2 → Nat) a + S3200x256.size a ≤ S3200x256.size a
  h_S3200x256 : 0 < S3200x256.numel
  reduces_S3200x32_S3200 : S3200x32.Reduces [1] S3200
  shapeCasts_S3200_S3200x1 : S3200.ShapeCasts S3200x1
  inb_S3200x1_S3200x1_0_0 : ∀ a, (![0, 0] : Fin 2 → Nat) a + S3200x1.size a ≤ S3200x1.size a
  h_S3200x1 : 0 < S3200x1.numel
  shapeCasts_S3200x1_S3200x1 : S3200x1.ShapeCasts S3200x1
  broadcasts_S3200x1_S3200x64 : S3200x1.Broadcasts S3200x64
  inb_S3200x64_S3200x64_0_0 : ∀ a, (![0, 0] : Fin 2 → Nat) a + S3200x64.size a ≤ S3200x64.size a
  h_S3200x64 : 0 < S3200x64.numel
  bcast_S_S25000x64 : S_.BroadcastsInDim S25000x64 (![] : Fin 0 → Fin S25000x64.rank)
  bcast_S400000_S400000x1_0 : S400000.BroadcastsInDim S400000x1 (![0] : Fin 1 → Fin S400000x1.rank)
  dot_S3200x256_S256x256_S3200x256_1_0_0_1_n_n_wf : DotDims.WF S3200x256 S256x256 S3200x256 [1] [0] [0] [1] [] []
  dot_S3200x256_S256x64_S3200x64_1_0_0_1_n_n_wf : DotDims.WF S3200x256 S256x64 S3200x64 [1] [0] [0] [1] [] []
  dot_S3200x64_S64x32_S3200x32_1_0_0_1_n_n_wf : DotDims.WF S3200x64 S64x32 S3200x32 [1] [0] [0] [1] [] []
  scatter_S25000x64_S400000x1_S400000x64_1_0_0_1_wf : ScatterDims.WF S25000x64 S400000x1 S400000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x256.size a ≤ S400000x256.size a
  hwx0_0 : ∀ i : grid0.Coords, EltTy.bits .f32 = 32 ∨ (Rect.block (s := S400000x256) S3200x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x256.size a ≤ S400000x256.size a
  hwx0_1 : ∀ i : grid0.Coords, EltTy.bits .f32 = 32 ∨ (Rect.block (s := S400000x256) S3200x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x1.size a ≤ S400000x1.size a
  hwx0_2 : ∀ i : grid0.Coords, EltTy.bits .f32 = 32 ∨ (Rect.block (s := S400000x1) S3200x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x64.size a ≤ S256x64.size a
  hwx0_5 : ∀ i : grid0.Coords, EltTy.bits .bf16 = 32 ∨ (Rect.block (s := S256x64) S256x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x32.size a ≤ S64x32.size a
  hwx0_6 : ∀ i : grid0.Coords, EltTy.bits .bf16 = 32 ∨ (Rect.block (s := S64x32) S64x32.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x32.size a ≤ S64x32.size a
  hwx0_7 : ∀ i : grid0.Coords, EltTy.bits .bf16 = 32 ∨ (Rect.block (s := S64x32) S64x32.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S3200x64.size a ≤ S400000x64.size a
  hwx0_8 : ∀ i : grid0.Coords, EltTy.bits .f32 = 32 ∨ (Rect.block (s := S400000x64) S3200x64.size (cc0_transform_8 i) (hinb0_8 i)).WholeWords (EltTy.packing .f32)

variable [Facts₀]

def dot_S3200x256_S256x256_S3200x256_1_0_0_1_n_n : DotDims S3200x256 S256x256 S3200x256 where
  lhsContracting := [1]
  rhsContracting := [0]
  lhsNonContracting := [0]
  rhsNonContracting := [1]
  lhsBatch := []
  rhsBatch := []
  wf := dot_S3200x256_S256x256_S3200x256_1_0_0_1_n_n_wf
def dot_S3200x256_S256x64_S3200x64_1_0_0_1_n_n : DotDims S3200x256 S256x64 S3200x64 where
  lhsContracting := [1]
  rhsContracting := [0]
  lhsNonContracting := [0]
  rhsNonContracting := [1]
  lhsBatch := []
  rhsBatch := []
  wf := dot_S3200x256_S256x64_S3200x64_1_0_0_1_n_n_wf
def dot_S3200x64_S64x32_S3200x32_1_0_0_1_n_n : DotDims S3200x64 S64x32 S3200x32 where
  lhsContracting := [1]
  rhsContracting := [0]
  lhsNonContracting := [0]
  rhsNonContracting := [1]
  lhsBatch := []
  rhsBatch := []
  wf := dot_S3200x64_S64x32_S3200x32_1_0_0_1_n_n_wf
def scatter_S25000x64_S400000x1_S400000x64_1_0_0_1 : ScatterDims S25000x64 S400000x1 S400000x64 where
  updateWindowDims := [1]
  insertedWindowDims := [0]
  scatterDimsToOperandDims := [0]
  indexVectorDim := 1
  wf := scatter_S25000x64_S400000x1_S400000x64_1_0_0_1_wf

abbrev win0_0 : Pipeline.Window sig grid0 :=
  Pipeline.Window.ofSpec (Memref.whole main_arg0) S3200x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3200x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S3200x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S256x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S64x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S64x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S3200x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S400000x256 : Shape := ⟨2, ![400000, 256]⟩
abbrev S400000 : Shape := ⟨1, ![400000]⟩
abbrev S256x256 : Shape := ⟨2, ![256, 256]⟩
abbrev S256x64 : Shape := ⟨2, ![256, 64]⟩
abbrev S64x32 : Shape := ⟨2, ![64, 32]⟩
abbrev S_ : Shape := ⟨0, ![]⟩
abbrev S400000x64 : Shape := ⟨2, ![400000, 64]⟩
abbrev S400000x32 : Shape := ⟨2, ![400000, 32]⟩
abbrev S400000x1 : Shape := ⟨2, ![400000, 1]⟩
abbrev S25000x64 : Shape := ⟨2, ![25000, 64]⟩

abbrev nBuf : Space → Nat
  | .hbm => 49
  | .vmem => 0
  | .smem => 0
  | _ => 0

abbrev bufTy : (tb : Table) → Fin (tcTables nBuf tb) → BufTy
  | .hbm, ⟨0, _⟩ => ⟨S400000x256, .f32⟩
  | .hbm, ⟨1, _⟩ => ⟨S400000x256, .f32⟩
  | .hbm, ⟨2, _⟩ => ⟨S400000, .f32⟩
  | .hbm, ⟨3, _⟩ => ⟨S400000, .i32⟩
  | .hbm, ⟨4, _⟩ => ⟨S400000, .i32⟩
  | .hbm, ⟨5, _⟩ => ⟨S256x256, .f32⟩
  | .hbm, ⟨6, _⟩ => ⟨S256x256, .f32⟩
  | .hbm, ⟨7, _⟩ => ⟨S256x64, .f32⟩
  | .hbm, ⟨8, _⟩ => ⟨S64x32, .f32⟩
  | .hbm, ⟨9, _⟩ => ⟨S64x32, .f32⟩
  | .hbm, ⟨10, _⟩ => ⟨S400000x256, .f32⟩
  | .hbm, ⟨11, _⟩ => ⟨S_, .f32⟩
  | .hbm, ⟨12, _⟩ => ⟨S400000x256, .f32⟩
  | .hbm, ⟨13, _⟩ => ⟨S400000x256, .f32⟩
  | .hbm, ⟨14, _⟩ => ⟨S400000x256, .f32⟩
  | .hbm, ⟨15, _⟩ => ⟨S_, .f32⟩
  | .hbm, ⟨16, _⟩ => ⟨S400000x256, .f32⟩
  | .hbm, ⟨17, _⟩ => ⟨S400000x256, .f32⟩
  | .hbm, ⟨18, _⟩ => ⟨S400000x64, .f32⟩
  | .hbm, ⟨19, _⟩ => ⟨S400000x256, .f32⟩
  | .hbm, ⟨20, _⟩ => ⟨S_, .f32⟩
  | .hbm, ⟨21, _⟩ => ⟨S400000x256, .f32⟩
  | .hbm, ⟨22, _⟩ => ⟨S400000x256, .f32⟩
  | .hbm, ⟨23, _⟩ => ⟨S400000x256, .f32⟩
  | .hbm, ⟨24, _⟩ => ⟨S_, .f32⟩
  | .hbm, ⟨25, _⟩ => ⟨S400000x256, .f32⟩
  | .hbm, ⟨26, _⟩ => ⟨S400000x256, .f32⟩
  | .hbm, ⟨27, _⟩ => ⟨S400000x64, .f32⟩
  | .hbm, ⟨28, _⟩ => ⟨S400000x32, .f32⟩
  | .hbm, ⟨29, _⟩ => ⟨S400000x32, .f32⟩
  | .hbm, ⟨30, _⟩ => ⟨S400000x32, .f32⟩
  | .hbm, ⟨31, _⟩ => ⟨S_, .f32⟩
  | .hbm, ⟨32, _⟩ => ⟨S400000, .f32⟩
  | .hbm, ⟨33, _⟩ => ⟨S400000, .f32⟩
  | .hbm, ⟨34, _⟩ => ⟨S400000, .f32⟩
  | .hbm, ⟨35, _⟩ => ⟨S_, .f32⟩
  | .hbm, ⟨36, _⟩ => ⟨S400000, .f32⟩
  | .hbm, ⟨37, _⟩ => ⟨S400000, .f32⟩
  | .hbm, ⟨38, _⟩ => ⟨S_, .f32⟩
  | .hbm, ⟨39, _⟩ => ⟨S400000, .f32⟩
  | .hbm, ⟨40, _⟩ => ⟨S400000, .f32⟩
  | .hbm, ⟨41, _⟩ => ⟨S400000, .f32⟩
  | .hbm, ⟨42, _⟩ => ⟨S400000x1, .f32⟩
  | .hbm, ⟨43, _⟩ => ⟨S400000x64, .f32⟩
  | .hbm, ⟨44, _⟩ => ⟨S400000x64, .f32⟩
  | .hbm, ⟨45, _⟩ => ⟨S_, .f32⟩
  | .hbm, ⟨46, _⟩ => ⟨S25000x64, .f32⟩
  | .hbm, ⟨47, _⟩ => ⟨S400000x1, .i32⟩
  | .hbm, ⟨48, _⟩ => ⟨S25000x64, .f32⟩
  | _, _ => ⟨S400000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_cst : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_call1_cst : Ref sig .tc := ⟨.hbm, 15, rfl⟩
abbrev main_call1_v0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call2_cst : Ref sig .tc := ⟨.hbm, 20, rfl⟩
abbrev main_call2_v0 : Ref sig .tc := ⟨.hbm, 21, rfl⟩
abbrev main_v6 : Ref sig .tc := ⟨.hbm, 22, rfl⟩
abbrev main_v7 : Ref sig .tc := ⟨.hbm, 23, rfl⟩
abbrev main_call3_cst : Ref sig .tc := ⟨.hbm, 24, rfl⟩
abbrev main_call3_v0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_0 : Ref sig .tc := ⟨.hbm, 35, rfl⟩
abbrev main_v16 : Ref sig .tc := ⟨.hbm, 36, rfl⟩
abbrev main_v17 : Ref sig .tc := ⟨.hbm, 37, rfl⟩
abbrev main_cst_1 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_2 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩

abbrev nD : Nat := 1
abbrev τ : Topo := Topo.v7x

variable {F : FTy → Type} [FloatOps F]

class Facts₀ : Prop where
  bcast_S_S400000x256 : S_.BroadcastsInDim S400000x256 (![] : Fin 0 → Fin S400000x256.rank)
  reducesTo_S400000x32_S400000_d1 : S400000x32.ReducesTo [1] S400000
  h_S_ : 0 < S_.numel
  bcast_S_S400000 : S_.BroadcastsInDim S400000 (![] : Fin 0 → Fin S400000.rank)
  bcast_S400000_S400000x1_0 : S400000.BroadcastsInDim S400000x1 (![0] : Fin 1 → Fin S400000x1.rank)
  bcast_S400000x1_S400000x64_0_1 : S400000x1.BroadcastsInDim S400000x64 (![0, 1] : Fin 2 → Fin S400000x64.rank)
  bcast_S_S25000x64 : S_.BroadcastsInDim S25000x64 (![] : Fin 0 → Fin S25000x64.rank)
  dot_S400000x256_S256x256_S400000x256_1_0_0_1_n_n_wf : DotDims.WF S400000x256 S256x256 S400000x256 [1] [0] [0] [1] [] []
  dot_S400000x256_S256x64_S400000x64_1_0_0_1_n_n_wf : DotDims.WF S400000x256 S256x64 S400000x64 [1] [0] [0] [1] [] []
  dot_S400000x64_S64x32_S400000x32_1_0_0_1_n_n_wf : DotDims.WF S400000x64 S64x32 S400000x32 [1] [0] [0] [1] [] []
  scatter_S25000x64_S400000x1_S400000x64_1_0_0_1_wf : ScatterDims.WF S25000x64 S400000x1 S400000x64 [1] [0] [0] 1

variable [Facts₀]

def dot_S400000x256_S256x256_S400000x256_1_0_0_1_n_n : DotDims S400000x256 S256x256 S400000x256 where
  lhsContracting := [1]
  rhsContracting := [0]
  lhsNonContracting := [0]
  rhsNonContracting := [1]
  lhsBatch := []
  rhsBatch := []
  wf := dot_S400000x256_S256x256_S400000x256_1_0_0_1_n_n_wf
def dot_S400000x256_S256x64_S400000x64_1_0_0_1_n_n : DotDims S400000x256 S256x64 S400000x64 where
  lhsContracting := [1]
  rhsContracting := [0]
  lhsNonContracting := [0]
  rhsNonContracting := [1]
  lhsBatch := []
  rhsBatch := []
  wf := dot_S400000x256_S256x64_S400000x64_1_0_0_1_n_n_wf
def dot_S400000x64_S64x32_S400000x32_1_0_0_1_n_n : DotDims S400000x64 S64x32 S400000x32 where
  lhsContracting := [1]
  rhsContracting := [0]
  lhsNonContracting := [0]
  rhsNonContracting := [1]
  lhsBatch := []
  rhsBatch := []
  wf := dot_S400000x64_S64x32_S400000x32_1_0_0_1_n_n_wf
def scatter_S25000x64_S400000x1_S400000x64_1_0_0_1 : ScatterDims S25000x64 S400000x1 S400000x64 where
  updateWindowDims := [1]
  insertedWindowDims := [0]
  scatterDimsToOperandDims := [0]
  indexVectorDim := 1
  wf := scatter_S25000x64_S400000x1_S400000x64_1_0_0_1_wf

class Facts : Prop extends Facts₀ where

variable [Facts]
-- ==== Proof.Spec.lean ====
/-
  What both programs compute before the final segment sum, one edge (one row of the two feature arrays) at a time.

  For an edge with source features `s` and neighbour features `n` (256 numbers each) and a score `p`:
  the same three-layer perceptron `x ↦ relu(relu(x·W0)·W1)·W2` is applied to `s` and to `n` (64 numbers each),
  the two results are projected to 32 numbers by `Wq` and by `Wk`, the inner product `ℓ` of the two projections
  goes through the logistic function `1 / (1 + e^(−ℓ))`, and the edge's output row is the neighbour's perceptron
  row scaled by `logistic(ℓ) · p`.  Every sum is a plain finite sum on the extended reals, so neither the order of
  the terms nor the way rows are grouped into blocks matters.  The zero of the rectifier and the one of the
  logistic function are kept as the float words both programs write (`0x00000000`, `0x3F800000`).
-/
import Idealize.ShloMosaic.PureOps.Ideal
import Idealize.ShloMosaic.PureOps.Ideal.Laws
import Idealize.ShloMosaic.Lib.ValueIdx

noncomputable section

namespace Cert.EdgeRows

open Idealize.ShloMosaic Idealize.ShloMosaic.ValueIdx
open scoped BigOperators

/-- A row vector times a matrix: entry `j` is the sum over `k` of `x k · W k j`. -/
def dense {K N : Nat} (x : Fin K → EReal) (W : Fin K → Fin N → EReal) (j : Fin N) : EReal :=
  ∑ k : Fin K, x k * W k j

/-- The rectifier `max x 0`, its zero the float word `0x00000000`. -/
def relu (x : EReal) : EReal := max x (Ideal.ofBits .f32 0x00000000#32)

/-- The three-layer perceptron of one feature row: `relu(relu(x·W0)·W1)·W2`. -/
def mlp (W0 W1 : Fin 256 → Fin 256 → EReal) (W2 : Fin 256 → Fin 64 → EReal) (x : Fin 256 → EReal) : Fin 64 → EReal :=
  dense (fun b => relu (dense (fun a => relu (dense x W0 a)) W1 b)) W2

/-- The inner product of the two projected rows. -/
def logit (Wq Wk : Fin 64 → Fin 32 → EReal) (hs hn : Fin 64 → EReal) : EReal :=
  ∑ h : Fin 32, dense hs Wq h * dense hn Wk h

/-- The logistic function `1 / (1 + e^(−ℓ))`, its one the float word `0x3F800000`. -/
def logistic (l : EReal) : EReal :=
  Ideal.div (Ideal.ofBits .f32 0x3F800000#32) (Ideal.ofBits .f32 0x3F800000#32 + Ideal.exp (-l))

/-- One edge's output row: the neighbour's perceptron row times `logistic(⟨q, k⟩) · p`. -/
def edgeRow (W0 W1 : Fin 256 → Fin 256 → EReal) (W2 : Fin 256 → Fin 64 → EReal) (Wq Wk : Fin 64 → Fin 32 → EReal)
    (s n : Fin 256 → EReal) (p : EReal) (j : Fin 64) : EReal :=
  mlp W0 W1 W2 n j * (logistic (logit Wq Wk (mlp W0 W1 W2 s) (mlp W0 W1 W2 n)) * p)

/-- Row `r` of a two-axis array. -/
abbrev row {m n : Nat} (x : (⟨2, ![m, n]⟩ : Shape).Idx → EReal) (r : Fin m) : Fin n → EReal := fun a => x (ix2 r a)

/-- A two-axis array as a function of its two coordinates. -/
abbrev mat {m n : Nat} (W : (⟨2, ![m, n]⟩ : Shape).Idx → EReal) : Fin m → Fin n → EReal := fun a b => W (ix2 a b)

/-- The whole array of edge rows at row `r`, column `j`, from the argument arrays read at their own indices. -/
def weightedAt (src nbr : (⟨2, ![400000, 256]⟩ : Shape).Idx → EReal) (ppr : (⟨1, ![400000]⟩ : Shape).Idx → EReal)
    (W0 W1 : (⟨2, ![256, 256]⟩ : Shape).Idx → EReal) (W2 : (⟨2, ![256, 64]⟩ : Shape).Idx → EReal)
    (Wq Wk : (⟨2, ![64, 32]⟩ : Shape).Idx → EReal) (r : Fin 400000) (j : Fin 64) : EReal :=
  edgeRow (mat W0) (mat W1) (mat W2) (mat Wq) (mat Wk) (row src r) (row nbr r) (ppr (ix1 r)) j

/-- The same as one function of the array index. -/
def weighted (src nbr : (⟨2, ![400000, 256]⟩ : Shape).Idx → EReal) (ppr : (⟨1, ![400000]⟩ : Shape).Idx → EReal)
    (W0 W1 : (⟨2, ![256, 256]⟩ : Shape).Idx → EReal) (W2 : (⟨2, ![256, 64]⟩ : Shape).Idx → EReal)
    (Wq Wk : (⟨2, ![64, 32]⟩ : Shape).Idx → EReal) : (⟨2, ![400000, 64]⟩ : Shape).Idx → EReal :=
  fun i => weightedAt src nbr ppr W0 W1 W2 Wq Wk (i 0) (i 1)

theorem weighted_ix2 (src nbr : (⟨2, ![400000, 256]⟩ : Shape).Idx → EReal) (ppr : (⟨1, ![400000]⟩ : Shape).Idx → EReal)
    (W0 W1 : (⟨2, ![256, 256]⟩ : Shape).Idx → EReal) (W2 : (⟨2, ![256, 64]⟩ : Shape).Idx → EReal)
    (Wq Wk : (⟨2, ![64, 32]⟩ : Shape).Idx → EReal) (r : Fin 400000) (j : Fin 64) :
    weighted src nbr ppr W0 W1 W2 Wq Wk (ix2 r j) = weightedAt src nbr ppr W0 W1 W2 Wq Wk r j := rfl

/-- `0 − x = −x` on the extended reals, with the zero spelt as the float word. -/
theorem zero_word_sub (x : EReal) : Ideal.ofBits .f32 0x00000000#32 - x = -x := by
  rw [Ideal.ofBits_zero_f32, zero_sub]

/-- `0 + x = x` with the zero spelt as the float word. -/
theorem zero_word_add (x : EReal) : Ideal.ofBits .f32 0x00000000#32 + x = x := by
  rw [Ideal.ofBits_zero_f32, zero_add]

end Cert.EdgeRows

end
-- ==== Proof.RefValue.lean ====
/-
  The reference's array of edge rows (the operand of its final segment sum) is `EdgeRows.weighted` of the argument
  arrays.  The reference computes every stage on whole arrays; read at row `r` each stage depends on row `r` of the
  stage before it only: a matrix product's entry `(r, j)` is the sum over `k` of the left operand at `(r, k)` times the
  right at `(k, j)`, the rectifier and the logistic steps are entry by entry, the sum over the 32 projected
  coordinates starts from a zero, and the two broadcasts copy entry `r` of the logistic factor along the 64 columns.
-/
import proofs.«155335_j76613626626624_1_alg».proof.Proof.Spec
import proofs.«155335_j76613626626624_1_alg».proof.Proof.Gen.ReferenceIdeal.Read

noncomputable section

namespace Cert.EdgeRows.Ref

open Idealize.ShloMosaic Idealize.ShloMosaic.ValueIdx
open Cert.ReferenceIdeal Cert.ReferenceIdeal.Read Cert.EdgeRows
open scoped BigOperators

/-- Two indices of a two-axis array with the same two coordinates are equal. -/
local macro "coords2" : tactic => `(tactic| (funext d; match d with | ⟨0, _⟩ => rfl | ⟨1, _⟩ => rfl))
/-- The same for a one-axis array. -/
local macro "coords1" : tactic => `(tactic| (funext d; match d with | ⟨0, _⟩ => rfl))

variable (x0 x1 : (⟨S400000x256, .f32⟩ : BufTy).Contents (Elt Ideal)) (x2 : (⟨S400000, .f32⟩ : BufTy).Contents (Elt Ideal))
  (x5 x6 : (⟨S256x256, .f32⟩ : BufTy).Contents (Elt Ideal)) (x7 : (⟨S256x64, .f32⟩ : BufTy).Contents (Elt Ideal))
  (x8 x9 : (⟨S64x32, .f32⟩ : BufTy).Contents (Elt Ideal))

/-! ## The perceptron of the source rows -/

theorem src_layer1 (r : Fin 400000) (a : Fin 256) :
    val_main_v1 (F := Ideal) x0 x5 (ix2 r a) = relu (dense (row x0 r) (mat x5) a) := by
  have el : ∀ k : Fin 256, lidx_main_v0 (ix2 r a) k = ix2 r k := fun k => by coords2
  have er : ∀ k : Fin 256, ridx_main_v0 (ix2 r a) k = ix2 k a := fun k => by coords2
  rw [val_main_v1_apply, val_main_v0_apply, val_main_call0_v0_apply, val_main_call0_cst_apply]
  simp only [el, er]
  rfl

theorem src_layer2 (r : Fin 400000) (b : Fin 256) :
    val_main_v3 (F := Ideal) x0 x5 x6 (ix2 r b)
      = relu (dense (fun a => relu (dense (row x0 r) (mat x5) a)) (mat x6) b) := by
  have el : ∀ k : Fin 256, lidx_main_v2 (ix2 r b) k = ix2 r k := fun k => by coords2
  have er : ∀ k : Fin 256, ridx_main_v2 (ix2 r b) k = ix2 k b := fun k => by coords2
  rw [val_main_v3_apply, val_main_v2_apply, val_main_call1_v0_apply, val_main_call1_cst_apply]
  simp only [el, er, src_layer1]
  rfl

theorem src_mlp (r : Fin 400000) (j : Fin 64) :
    val_main_v4 (F := Ideal) x0 x5 x6 x7 (ix2 r j) = mlp (mat x5) (mat x6) (mat x7) (row x0 r) j := by
  have el : ∀ k : Fin 256, lidx_main_v4 (ix2 r j) k = ix2 r k := fun k => by coords2
  have er : ∀ k : Fin 256, ridx_main_v4 (ix2 r j) k = ix2 k j := fun k => by coords2
  rw [val_main_v4_apply]
  simp only [el, er, src_layer2]
  rfl

/-! ## The perceptron of the neighbour rows -/

theorem nbr_layer1 (r : Fin 400000) (a : Fin 256) :
    val_main_v6 (F := Ideal) x1 x5 (ix2 r a) = relu (dense (row x1 r) (mat x5) a) := by
  have el : ∀ k : Fin 256, lidx_main_v5 (ix2 r a) k = ix2 r k := fun k => by coords2
  have er : ∀ k : Fin 256, ridx_main_v5 (ix2 r a) k = ix2 k a := fun k => by coords2
  rw [val_main_v6_apply, val_main_v5_apply, val_main_call2_v0_apply, val_main_call2_cst_apply]
  simp only [el, er]
  rfl

theorem nbr_layer2 (r : Fin 400000) (b : Fin 256) :
    val_main_v8 (F := Ideal) x1 x5 x6 (ix2 r b)
      = relu (dense (fun a => relu (dense (row x1 r) (mat x5) a)) (mat x6) b) := by
  have el : ∀ k : Fin 256, lidx_main_v7 (ix2 r b) k = ix2 r k := fun k => by coords2
  have er : ∀ k : Fin 256, ridx_main_v7 (ix2 r b) k = ix2 k b := fun k => by coords2
  rw [val_main_v8_apply, val_main_v7_apply, val_main_call3_v0_apply, val_main_call3_cst_apply]
  simp only [el, er, nbr_layer1]
  rfl

theorem nbr_mlp (r : Fin 400000) (j : Fin 64) :
    val_main_v9 (F := Ideal) x1 x5 x6 x7 (ix2 r j) = mlp (mat x5) (mat x6) (mat x7) (row x1 r) j := by
  have el : ∀ k : Fin 256, lidx_main_v9 (ix2 r j) k = ix2 r k := fun k => by coords2
  have er : ∀ k : Fin 256, ridx_main_v9 (ix2 r j) k = ix2 k j := fun k => by coords2
  rw [val_main_v9_apply]
  simp only [el, er, nbr_layer2]
  rfl

/-! ## The two projections and their inner product -/

theorem proj_src (r : Fin 400000) (h : Fin 32) :
    val_main_v10 (F := Ideal) x0 x5 x6 x7 x8 (ix2 r h)
      = dense (mlp (mat x5) (mat x6) (mat x7) (row x0 r)) (mat x8) h := by
  have el : ∀ k : Fin 64, lidx_main_v10 (ix2 r h) k = ix2 r k := fun k => by coords2
  have er : ∀ k : Fin 64, ridx_main_v10 (ix2 r h) k = ix2 k h := fun k => by coords2
  rw [val_main_v10_apply]
  simp only [el, er, src_mlp]
  rfl

theorem proj_nbr (r : Fin 400000) (h : Fin 32) :
    val_main_v11 (F := Ideal) x1 x5 x6 x7 x9 (ix2 r h)
      = dense (mlp (mat x5) (mat x6) (mat x7) (row x1 r)) (mat x9) h := by
  have el : ∀ k : Fin 64, lidx_main_v11 (ix2 r h) k = ix2 r k := fun k => by coords2
  have er : ∀ k : Fin 64, ridx_main_v11 (ix2 r h) k = ix2 k h := fun k => by coords2
  rw [val_main_v11_apply]
  simp only [el, er, nbr_mlp]
  rfl

/-- The sum over the 32 projected coordinates, started from the zero word, is the inner product. -/
theorem inner (r : Fin 400000) :
    val_main_v13 (F := Ideal) x0 x1 x5 x6 x7 x8 x9 (ix1 r)
      = logit (mat x8) (mat x9) (mlp (mat x5) (mat x6) (mat x7) (row x0 r)) (mlp (mat x5) (mat x6) (mat x7) (row x1 r)) := by
  have ei : ∀ k : Fin 32, idx_main_v13 (ix1 r) k = ix2 r k := fun k => by coords2
  rw [val_main_v13_apply, val_main_cst_apply]
  simp only [ei, val_main_v12_apply, proj_src, proj_nbr]
  exact zero_word_add _

/-! ## The logistic factor and the scaled rows -/

theorem factor_times_score (r : Fin 400000) :
    val_main_v20 (F := Ideal) x0 x1 x2 x5 x6 x7 x8 x9 (ix1 r)
      = logistic (logit (mat x8) (mat x9) (mlp (mat x5) (mat x6) (mat x7) (row x0 r)) (mlp (mat x5) (mat x6) (mat x7) (row x1 r)))
        * x2 (ix1 r) := by
  rw [val_main_v20_apply, val_main_v19_apply, val_main_v18_apply, val_main_cst_1_apply, val_main_v17_apply,
    val_main_v16_apply, val_main_cst_0_apply, val_main_v15_apply, val_main_v14_apply, inner]
  rfl

theorem weighted_at (r : Fin 400000) (j : Fin 64) :
    val_main_v23 (F := Ideal) x0 x1 x2 x5 x6 x7 x8 x9 (ix2 r j) = weightedAt x0 x1 x2 x5 x6 x7 x8 x9 r j := by
  have eb : idx_main_v21 (idx_main_v22 (ix2 r j)) = ix1 r := by coords1
  rw [val_main_v23_apply, val_main_v22_apply, val_main_v21_apply, eb, factor_times_score, nbr_mlp]
  rfl

/-- THE REFERENCE'S EDGE ROWS are `weighted` of its arguments. -/
theorem weighted_eq :
    val_main_v23 (F := Ideal) x0 x1 x2 x5 x6 x7 x8 x9 = weighted x0 x1 x2 x5 x6 x7 x8 x9 := by
  funext i
  obtain ⟨r, j, rfl⟩ : ∃ (r : Fin 400000) (j : Fin 64), i = ix2 r j := ⟨i 0, i 1, eq_ix2 i⟩
  exact weighted_at x0 x1 x2 x5 x6 x7 x8 x9 r j

end Cert.EdgeRows.Ref

end
-- ==== Proof.KernelDots.lean ====
/-
  The kernel's three matrix products and its lane sum, read at an entry.

  A block product `l · w` into a zero accumulator has, at row `p` and column `a`, the sum over the contracted
  coordinate `k` of `l (p, k) · w (k, a)`: the product's own contraction index has one axis, and a sum over it is a
  sum over that axis's coordinate.  The sum over the 32 lanes of a row is the sum of the row's entries.
-/
import proofs.«155335_j76613626626624_1_alg».proof.Proof.Spec
import proofs.«155335_j76613626626624_1_alg».proof.Proof.Gen.KernelIdeal
import Idealize.ShloMosaic.PureOps.Ideal.Laws
import Idealize.ShloMosaic.Lib.ValueIdx

noncomputable section

namespace Cert.EdgeRows.Kern

open Idealize.ShloMosaic Idealize.ShloMosaic.ValueIdx
open Cert.KernelIdeal Cert.KernelIdeal.Gen Cert.EdgeRows
open scoped BigOperators

/-- The 3200×256 by 256×256 product's dimension record. -/
abbrev dHidden : DotDims S3200x256 S256x256 S3200x256 := dot_S3200x256_S256x256_S3200x256_1_0_0_1_n_n
/-- The 3200×256 by 256×64 product's. -/
abbrev dOut : DotDims S3200x256 S256x64 S3200x64 := dot_S3200x256_S256x64_S3200x64_1_0_0_1_n_n
/-- The 3200×64 by 64×32 product's. -/
abbrev dProj : DotDims S3200x64 S64x32 S3200x32 := dot_S3200x64_S64x32_S3200x32_1_0_0_1_n_n

/-! ## 3200×256 by 256×256 -/

theorem hidden_lhs0 (i : S3200x256.Idx) (q : dHidden.contr.Idx) : (dHidden.lhsIdx i q 0).val = (i 0).val := by
  unfold DotDims.lhsIdx
  rw [dif_neg (show ¬(0 : Fin S3200x256.rank) ∈ dHidden.lhsBatch by decide), dif_pos (show (0 : Fin S3200x256.rank) ∈ dHidden.lhsNonContracting by decide)]
  rfl
theorem hidden_rhs1 (i : S3200x256.Idx) (q : dHidden.contr.Idx) : (dHidden.rhsIdx i q 1).val = (i 1).val := by
  unfold DotDims.rhsIdx
  rw [dif_neg (show ¬(1 : Fin S256x256.rank) ∈ dHidden.rhsBatch by decide), dif_pos (show (1 : Fin S256x256.rank) ∈ dHidden.rhsNonContracting by decide)]
  rfl

/-- Entry `(p, a)` of the block product into zeros: the sum over `k` of `l (p, k) · w (k, a)`. -/
theorem hidden_apply {φ₁ φ₂ : FTy} (l : FVec Ideal S3200x256 φ₁) (w : FVec Ideal S256x256 φ₂) (p : Fin 3200) (a : Fin 256) :
    matmul dHidden none l w (constant S3200x256 .f32 0x00000000#32) (ix2 p a) = ∑ k : Fin 256, l (ix2 p k) * w (ix2 k a) := by
  refine (Ideal.matmul_constant_zero_apply dHidden none l w (ix2 p a)).trans ?_
  rw [← Equiv.sum_comp (contrEquiv1 dHidden 256 rfl rfl).symm]
  refine Finset.sum_congr rfl fun k _ => ?_
  have hk := contrEquiv1_symm_val dHidden 256 rfl rfl k
  have el : dHidden.lhsIdx (ix2 p a) ((contrEquiv1 dHidden 256 rfl rfl).symm k) = ix2 p k := funext fun d => Fin.ext (by
    match d with
    | ⟨0, _⟩ => exact hidden_lhs0 _ _
    | ⟨1, _⟩ => exact (dHidden.lhsIdx_val_of_single rfl _ _).trans hk)
  have er : dHidden.rhsIdx (ix2 p a) ((contrEquiv1 dHidden 256 rfl rfl).symm k) = ix2 k a := funext fun d => Fin.ext (by
    match d with
    | ⟨0, _⟩ => exact (dHidden.rhsIdx_val_of_single rfl _ _).trans hk
    | ⟨1, _⟩ => exact hidden_rhs1 _ _)
  rw [el, er]

/-! ## 3200×256 by 256×64 -/

theorem out_lhs0 (i : S3200x64.Idx) (q : dOut.contr.Idx) : (dOut.lhsIdx i q 0).val = (i 0).val := by
  unfold DotDims.lhsIdx
  rw [dif_neg (show ¬(0 : Fin S3200x256.rank) ∈ dOut.lhsBatch by decide), dif_pos (show (0 : Fin S3200x256.rank) ∈ dOut.lhsNonContracting by decide)]
  rfl
theorem out_rhs1 (i : S3200x64.Idx) (q : dOut.contr.Idx) : (dOut.rhsIdx i q 1).val = (i 1).val := by
  unfold DotDims.rhsIdx
  rw [dif_neg (show ¬(1 : Fin S256x64.rank) ∈ dOut.rhsBatch by decide), dif_pos (show (1 : Fin S256x64.rank) ∈ dOut.rhsNonContracting by decide)]
  rfl

theorem out_apply {φ₁ φ₂ : FTy} (l : FVec Ideal S3200x256 φ₁) (w : FVec Ideal S256x64 φ₂) (p : Fin 3200) (j : Fin 64) :
    matmul dOut none l w (constant S3200x64 .f32 0x00000000#32) (ix2 p j) = ∑ k : Fin 256, l (ix2 p k) * w (ix2 k j) := by
  refine (Ideal.matmul_constant_zero_apply dOut none l w (ix2 p j)).trans ?_
  rw [← Equiv.sum_comp (contrEquiv1 dOut 256 rfl rfl).symm]
  refine Finset.sum_congr rfl fun k _ => ?_
  have hk := contrEquiv1_symm_val dOut 256 rfl rfl k
  have el : dOut.lhsIdx (ix2 p j) ((contrEquiv1 dOut 256 rfl rfl).symm k) = ix2 p k := funext fun d => Fin.ext (by
    match d with
    | ⟨0, _⟩ => exact out_lhs0 _ _
    | ⟨1, _⟩ => exact (dOut.lhsIdx_val_of_single rfl _ _).trans hk)
  have er : dOut.rhsIdx (ix2 p j) ((contrEquiv1 dOut 256 rfl rfl).symm k) = ix2 k j := funext fun d => Fin.ext (by
    match d with
    | ⟨0, _⟩ => exact (dOut.rhsIdx_val_of_single rfl _ _).trans hk
    | ⟨1, _⟩ => exact out_rhs1 _ _)
  rw [el, er]

/-! ## 3200×64 by 64×32 -/

theorem proj_lhs0 (i : S3200x32.Idx) (q : dProj.contr.Idx) : (dProj.lhsIdx i q 0).val = (i 0).val := by
  unfold DotDims.lhsIdx
  rw [dif_neg (show ¬(0 : Fin S3200x64.rank) ∈ dProj.lhsBatch by decide), dif_pos (show (0 : Fin S3200x64.rank) ∈ dProj.lhsNonContracting by decide)]
  rfl
theorem proj_rhs1 (i : S3200x32.Idx) (q : dProj.contr.Idx) : (dProj.rhsIdx i q 1).val = (i 1).val := by
  unfold DotDims.rhsIdx
  rw [dif_neg (show ¬(1 : Fin S64x32.rank) ∈ dProj.rhsBatch by decide), dif_pos (show (1 : Fin S64x32.rank) ∈ dProj.rhsNonContracting by decide)]
  rfl

theorem proj_apply {φ₁ φ₂ : FTy} (l : FVec Ideal S3200x64 φ₁) (w : FVec Ideal S64x32 φ₂) (p : Fin 3200) (h : Fin 32) :
    matmul dProj none l w (constant S3200x32 .f32 0x00000000#32) (ix2 p h) = ∑ k : Fin 64, l (ix2 p k) * w (ix2 k h) := by
  refine (Ideal.matmul_constant_zero_apply dProj none l w (ix2 p h)).trans ?_
  rw [← Equiv.sum_comp (contrEquiv1 dProj 64 rfl rfl).symm]
  refine Finset.sum_congr rfl fun k _ => ?_
  have hk := contrEquiv1_symm_val dProj 64 rfl rfl k
  have el : dProj.lhsIdx (ix2 p h) ((contrEquiv1 dProj 64 rfl rfl).symm k) = ix2 p k := funext fun d => Fin.ext (by
    match d with
    | ⟨0, _⟩ => exact proj_lhs0 _ _
    | ⟨1, _⟩ => exact (dProj.lhsIdx_val_of_single rfl _ _).trans hk)
  have er : dProj.rhsIdx (ix2 p h) ((contrEquiv1 dProj 64 rfl rfl).symm k) = ix2 k h := funext fun d => Fin.ext (by
    match d with
    | ⟨0, _⟩ => exact (dProj.rhsIdx_val_of_single rfl _ _).trans hk
    | ⟨1, _⟩ => exact proj_rhs1 _ _)
  rw [el, er]

/-! ## The sum over the 32 lanes -/

/-- The lane sum of row `p` of a 3200×32 block, from the zero accumulator: the sum of the row's 32 entries. -/
theorem lane_sum (x : FVec Ideal S3200x32 .f32) (hr : S3200x32.Reduces [1] S3200) (hφ : FKind.Formats .f32)
    (hacc : (0x00000000#32 : BitVec 32) = FKind.add.neutral .f32 hφ) (p : Fin 3200) :
    multiReduction .add [1] S3200 x 0x00000000#32 hr hφ hacc (ix1 p) = ∑ h : Fin 32, x (ix2 p h) := by
  refine (Ideal.multiReduction_add_single x 0x00000000#32 hr hφ hacc (ix1 p)).trans ?_
  refine Finset.sum_congr rfl fun k _ => ?_
  exact congrArg x (funext fun d => Fin.ext (by match d with | ⟨0, _⟩ => rfl | ⟨1, _⟩ => rfl))

end Cert.EdgeRows.Kern

end
-- ==== Proof.LibKeepdims.lean ====
/-
  Two layout operations of a "keep the reduced axis" column, read at an index.

  A vector of `a` numbers cast to an `[a, 1]` column keeps entry `i` at `(i, 0)`: both have row-major position `i`.
  An `[a, 1]` column broadcast to `[a, b]` copies entry `(p, 0)` along row `p`.
-/
import Idealize.ShloMosaic.Lib.Pipeline.Value
import Idealize.ShloMosaic.Lib.ValueIdx

namespace Idealize.ShloMosaic.Keepdims

open Idealize.ShloMosaic Idealize.ShloMosaic.ValueIdx

variable {α : Type}

/-- An `[a]` vector cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Idealize.ShloMosaic.Keepdims
-- ==== Proof.KernelRows.lean ====
/-
  The kernel body's arithmetic at one entry of its output block.

  The body works on a block of 3200 edges at a time, but every operation in it is row by row: entry `(p, j)` of the
  stored block depends on row `p` of the two feature blocks, on entry `p` of the score column and on the five weight
  matrices only, and it is `EdgeRows.edgeRow` of those.  The roundings to the narrow float format on the way into
  each product are the identity on the extended reals; the body's `0 − ℓ` is `−ℓ`; the lane sum into a zero
  accumulator is the plain sum; the column of logistic factors is copied along the 64 output columns.
-/
import proofs.«155335_j76613626626624_1_alg».proof.Proof.KernelDots
import proofs.«155335_j76613626626624_1_alg».proof.Proof.LibKeepdims
import proofs.«155335_j76613626626624_1_alg».proof.Proof.Gen.KernelIdeal.Skeleton
import Idealize.ShloMosaic.Lib.Pipeline.Value

noncomputable section

namespace Cert.EdgeRows.Kern

open Idealize.ShloMosaic Idealize.ShloMosaic.ValueIdx
open Cert.KernelIdeal Cert.KernelIdeal.Gen Cert.EdgeRows
open scoped BigOperators

/-! ## The weight blocks pass through a cast to their own shape -/

theorem pay2_eq (v : Vec Ideal S256x256 .bf16) : k0_pay2 v = v := shapeCast_self v _
theorem pay3_eq (v : Vec Ideal S256x256 .bf16) : k0_pay3 v = v := shapeCast_self v _
theorem pay4_eq (v : Vec Ideal S256x64 .bf16) : k0_pay4 v = v := shapeCast_self v _
theorem pay5_eq (v : Vec Ideal S64x32 .bf16) : k0_pay5 v = v := shapeCast_self v _

/-! ## One hidden layer -/

/-- A hidden layer's entry `(p, a)`: the rectified sum over `k` of `l (p, k) · w (k, a)`, rounded to the narrow format
    (the identity here). -/
theorem hidden_relu {φ₁ φ₂ : FTy} (l : FVec Ideal S3200x256 φ₁) (w : FVec Ideal S256x256 φ₂)
    (hlt : FTy.bits .bf16 < FTy.bits .f32) (p : Fin 3200) (a : Fin 256) :
    truncf .bf16 (maximumf (matmul dHidden none l w (constant S3200x256 .f32 0x00000000#32))
        (broadcast S3200x256 (Scalar.ofBits (F := Ideal) .f32 0x00000000#32))) hlt (ix2 p a)
      = relu (dense (row l p) (mat w) a) := by
  refine (congrArg (fun z => max z (Ideal.ofBits .f32 0x00000000#32)) (hidden_apply l w p a)).trans ?_
  rfl

/-! ## The perceptron of a block's rows -/

theorem pay6_at (v0 v2 : Vec Ideal S256x256 .bf16) (v4 : Vec Ideal S256x64 .bf16) (v21 : Vec Ideal S3200x256 .f32)
    (p : Fin 3200) (j : Fin 64) :
    k0_pay6 v0 v2 v4 v21 (ix2 p j) = mlp (mat v0) (mat v2) (mat v4) (row v21 p) j := by
  refine (out_apply _ (k0_pay4 v4) p j).trans ?_
  rw [pay4_eq]
  show _ = ∑ b : Fin 256, relu (dense (fun a => relu (dense (row v21 p) (mat v0) a)) (mat v2) b) * v4 (ix2 b j)
  refine Finset.sum_congr rfl fun b _ => congrArg (· * v4 (ix2 b j)) ?_
  refine (hidden_relu _ (k0_pay3 v2) _ p b).trans ?_
  rw [pay3_eq]
  show relu (∑ a : Fin 256, _ * v2 (ix2 a b)) = relu (∑ a : Fin 256, relu (dense (row v21 p) (mat v0) a) * v2 (ix2 a b))
  refine congrArg relu (Finset.sum_congr rfl fun a _ => congrArg (· * v2 (ix2 a b)) ?_)
  refine (hidden_relu _ (k0_pay2 v0) _ p a).trans ?_
  rw [pay2_eq]
  rfl

theorem pay6_row (v0 v2 : Vec Ideal S256x256 .bf16) (v4 : Vec Ideal S256x64 .bf16) (v21 : Vec Ideal S3200x256 .f32)
    (p : Fin 3200) : row (k0_pay6 v0 v2 v4 v21) p = mlp (mat v0) (mat v2) (mat v4) (row v21 p) :=
  funext fun j => pay6_at v0 v2 v4 v21 p j

/-- The source rows' perceptron, projected: the body repeats the perceptron's text on the source block. -/
theorem pay7_at (v0 v2 : Vec Ideal S256x256 .bf16) (v4 : Vec Ideal S256x64 .bf16) (v6 : Vec Ideal S64x32 .bf16)
    (v10 : Vec Ideal S3200x256 .f32) (p : Fin 3200) (h : Fin 32) :
    k0_pay7 v0 v2 v4 v6 v10 (ix2 p h) = dense (mlp (mat v0) (mat v2) (mat v4) (row v10 p)) (mat v6) h := by
  refine (proj_apply _ _ p h).trans ?_
  rw [shapeCast_self]
  show _ = ∑ c : Fin 64, mlp (mat v0) (mat v2) (mat v4) (row v10 p) c * v6 (ix2 c h)
  refine Finset.sum_congr rfl fun c _ => congrArg (· * v6 (ix2 c h)) ?_
  exact pay6_at v0 v2 v4 v10 p c

theorem pay7_row (v0 v2 : Vec Ideal S256x256 .bf16) (v4 : Vec Ideal S256x64 .bf16) (v6 : Vec Ideal S64x32 .bf16)
    (v10 : Vec Ideal S3200x256 .f32) (p : Fin 3200) :
    row (k0_pay7 v0 v2 v4 v6 v10) p = dense (mlp (mat v0) (mat v2) (mat v4) (row v10 p)) (mat v6) :=
  funext fun h => pay7_at v0 v2 v4 v6 v10 p h

/-! ## The logistic factor and the scaled rows -/

theorem pay1_at (v9 : FVec Ideal S64x32 .bf16) (v31 : FVec Ideal S3200x64 .f32) (v33 : FVec Ideal S3200x32 .f32)
    (v46 : Vec Ideal S3200x1 .f32) (p : Fin 3200) (j : Fin 64) :
    k0_pay1 v9 v31 v33 v46 (ix2 p j)
      = row v31 p j * (logistic (∑ h : Fin 32, row v33 p h * dense (row v31 p) (mat v9) h) * v46 (ix2 p (0 : Fin 1))) := by
  refine (mulf_apply v31 _ (ix2 p j)).trans ?_
  refine congrArg (v31 (ix2 p j) * ·) ?_
  refine (Keepdims.broadcastTo_a1_ab_apply _ _ p j (0 : Fin 1)).trans ?_
  refine (mulf_apply _ _ (ix2 p (0 : Fin 1))).trans ?_
  refine congrArg₂ (· * ·) ?_ (congrFun (shapeCast_self v46 _) _)
  refine congrArg (fun z => Ideal.div (Ideal.ofBits .f32 0x3F800000#32) (Ideal.ofBits .f32 0x3F800000#32 + Ideal.exp z)) ?_
  refine (zero_word_sub _).trans (congrArg Neg.neg ?_)
  refine (Keepdims.shapeCast_a_a1_apply _ _ p (0 : Fin 1)).trans ?_
  refine (lane_sum _ _ _ _ p).trans ?_
  refine Finset.sum_congr rfl fun h _ => ?_
  refine (mulf_apply v33 _ (ix2 p h)).trans (congrArg (v33 (ix2 p h) * ·) ?_)
  exact proj_apply _ v9 p h

/-- THE BODY'S STORED VALUE at `(p, j)`: the edge row of the blocks' row `p`. -/
theorem payload_at (x0 x1 : Vec Ideal S3200x256 .f32) (x2 : Vec Ideal S3200x1 .f32) (x3 x4 : Vec Ideal S256x256 .bf16)
    (x5 : Vec Ideal S256x64 .bf16) (x6 x7 : Vec Ideal S64x32 .bf16) (p : Fin 3200) (j : Fin 64) :
    k0_pay1 (k0_pay5 x7) (k0_pay6 x3 x4 x5 x1) (k0_pay7 x3 x4 x5 x6 x0) x2 (ix2 p j)
      = edgeRow (mat x3) (mat x4) (mat x5) (mat x6) (mat x7) (row x0 p) (row x1 p) (x2 (ix2 p (0 : Fin 1))) j := by
  rw [pay1_at, pay6_row, pay7_row, pay5_eq]
  rfl

/-- The same with the blocks' entries named as entries of whole arrays: when row `p` of each feature block is row `r`
    of its array, entry `p` of the score column is entry `r` of the scores, and the weight blocks are the weight
    arrays, the stored value at `(p, j)` is the array of edge rows at `(r, j)`. -/
theorem block_row (x0 x1 : Vec Ideal S3200x256 .f32) (x2 : Vec Ideal S3200x1 .f32) (x3 x4 : Vec Ideal S256x256 .bf16)
    (x5 : Vec Ideal S256x64 .bf16) (x6 x7 : Vec Ideal S64x32 .bf16)
    (A0 A1 : (⟨2, ![400000, 256]⟩ : Shape).Idx → EReal) (A2 : (⟨1, ![400000]⟩ : Shape).Idx → EReal)
    (A5 A6 : (⟨2, ![256, 256]⟩ : Shape).Idx → EReal) (A7 : (⟨2, ![256, 64]⟩ : Shape).Idx → EReal)
    (A8 A9 : (⟨2, ![64, 32]⟩ : Shape).Idx → EReal) (r : Fin 400000) (p : Fin 3200) (j : Fin 64)
    (h0 : ∀ a : Fin 256, x0 (ix2 p a) = A0 (ix2 r a)) (h1 : ∀ a : Fin 256, x1 (ix2 p a) = A1 (ix2 r a))
    (h2 : x2 (ix2 p (0 : Fin 1)) = A2 (ix1 r))
    (h3 : ∀ a b : Fin 256, x3 (ix2 a b) = A5 (ix2 a b)) (h4 : ∀ a b : Fin 256, x4 (ix2 a b) = A6 (ix2 a b))
    (h5 : ∀ (a : Fin 256) (b : Fin 64), x5 (ix2 a b) = A7 (ix2 a b))
    (h6 : ∀ (a : Fin 64) (b : Fin 32), x6 (ix2 a b) = A8 (ix2 a b))
    (h7 : ∀ (a : Fin 64) (b : Fin 32), x7 (ix2 a b) = A9 (ix2 a b)) :
    k0_pay1 (k0_pay5 x7) (k0_pay6 x3 x4 x5 x1) (k0_pay7 x3 x4 x5 x6 x0) x2 (ix2 p j)
      = weightedAt A0 A1 A2 A5 A6 A7 A8 A9 r j := by
  have e0 : row x0 p = row A0 r := funext h0
  have e1 : row x1 p = row A1 r := funext h1
  have e3 : mat x3 = mat A5 := funext fun a => funext fun b => h3 a b
  have e4 : mat x4 = mat A6 := funext fun a => funext fun b => h4 a b
  have e5 : mat x5 = mat A7 := funext fun a => funext fun b => h5 a b
  have e6 : mat x6 = mat A8 := funext fun a => funext fun b => h6 a b
  have e7 : mat x7 = mat A9 := funext fun a => funext fun b => h7 a b
  rw [payload_at, e0, e1, e3, e4, e5, e6, e7, h2]
  rfl

end Cert.EdgeRows.Kern

end
-- ==== Proof.KernelArray.lean ====
/-
  The kernel's array of edge rows after the region, and the program's result after the final segment sum.

  The region runs over 125 grid points; point `t` works on rows `3200·t … 3200·t + 3199`: its two feature blocks and
  its score block are those rows of their arrays, the five weight blocks are the whole weight arrays at every point,
  and it writes back rows `3200·t …` of the output array.  What a point writes is `EdgeRows.weighted` of the argument
  arrays restricted to its rows (the body's arithmetic is row by row), the 125 blocks tile the 400000 rows, so the
  array ends holding `weighted` of the arguments.  The score column the region reads is the score vector cast to a
  column, and the narrow-format weights are the weights themselves on the extended reals.  After the region the
  program adds the rows into 25000 segments; that sum is applied to the array just described.
-/
import proofs.«155335_j76613626626624_1_alg».proof.Proof.KernelRows
import proofs.«155335_j76613626626624_1_alg».proof.Proof.Gen.KernelIdeal.Frame
import Idealize.ShloMosaic.Lib.Pipeline.Value
import Idealize.ShloMosaic.Lib.StableHlo.Run

noncomputable section

namespace Cert.EdgeRows.Kern

open Idealize.ShloMosaic Idealize.ShloMosaic.TcCoe Idealize.ShloMosaic.ValueIdx Idealize.ShloMosaic.StableHlo
open Idealize.SL.Sem
open Cert.KernelIdeal Cert.KernelIdeal.Gen Cert.EdgeRows

variable (m : (ℓ : Loc nD τ sig) → Buf (Elt Ideal) ℓ) (ρ : Dev nD → PrngReg)

/-! ## What the region finds in the arrays the host wrote before it -/

/-- The score column is the score vector cast to a column. -/
theorem entry_score (c : Dev nD) :
    (V m c main_v0 : S400000x1.Idx → EReal)
      = shapeCast S400000x1 (m ((c.tc : Thread nD τ).loc main_arg2)) shapeCasts_S400000_S400000x1 := by
  show StableHlo.after hostOps0 (fun b => m (c, b)) (Proc.devRef .tc main_v0) = _
  after_results
  rfl

/-- Each narrow-format weight array is the weight array itself. -/
theorem entry_w0 (c : Dev nD) : (V m c main_v1 : S256x256.Idx → EReal) = m ((c.tc : Thread nD τ).loc main_arg5) := by
  show StableHlo.after hostOps0 (fun b => m (c, b)) (Proc.devRef .tc main_v1) = _
  after_results
  rfl
theorem entry_w1 (c : Dev nD) : (V m c main_v2 : S256x256.Idx → EReal) = m ((c.tc : Thread nD τ).loc main_arg6) := by
  show StableHlo.after hostOps0 (fun b => m (c, b)) (Proc.devRef .tc main_v2) = _
  after_results
  rfl
theorem entry_w2 (c : Dev nD) : (V m c main_v3 : S256x64.Idx → EReal) = m ((c.tc : Thread nD τ).loc main_arg7) := by
  show StableHlo.after hostOps0 (fun b => m (c, b)) (Proc.devRef .tc main_v3) = _
  after_results
  rfl
theorem entry_wq (c : Dev nD) : (V m c main_v4 : S64x32.Idx → EReal) = m ((c.tc : Thread nD τ).loc main_arg8) := by
  show StableHlo.after hostOps0 (fun b => m (c, b)) (Proc.devRef .tc main_v4) = _
  after_results
  rfl
theorem entry_wk (c : Dev nD) : (V m c main_v5 : S64x32.Idx → EReal) = m ((c.tc : Thread nD τ).loc main_arg9) := by
  show StableHlo.after hostOps0 (fun b => m (c, b)) (Proc.devRef .tc main_v5) = _
  after_results
  rfl

/-! ## Where each block sits -/

theorem hz : (![0, 0] : Fin 2 → Nat) = fun _ => 0 := funext fun a => by fin_cases a <;> rfl

/-- The printed index maps over the grid: the feature, score and output blocks move with the point along the rows,
    the weight blocks stay at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- The row of the arrays that row `p` of point `t`'s blocks is. -/
def rowOf (t : Fin cfg0.N) (p : Fin 3200) : Fin 400000 :=
  ⟨t.val * 3200 + p.val, by
    have ht : t.val < 125 := lt_of_lt_of_eq t.isLt N_0
    have hp := p.isLt
    omega⟩

theorem emb_src (t : Fin cfg0.N) (p : Fin 3200) (a : Fin 256) :
    ((cfg0.win 0).blk t).view.emb (ix2 p a) = ix2 (rowOf t p) a := by
  obtain ⟨e0, e1, -⟩ := idx_facts t
  funext d; apply Fin.ext
  match d with
  | ⟨0, _⟩ => show win0_0.index t (0 : Fin 2) * 3200 + 1 * p.val = t.val * 3200 + p.val; omega
  | ⟨1, _⟩ => show win0_0.index t (1 : Fin 2) * 256 + 1 * a.val = a.val; omega

theorem emb_nbr (t : Fin cfg0.N) (p : Fin 3200) (a : Fin 256) :
    ((cfg0.win 1).blk t).view.emb (ix2 p a) = ix2 (rowOf t p) a := by
  obtain ⟨-, -, e0, e1, -⟩ := idx_facts t
  funext d; apply Fin.ext
  match d with
  | ⟨0, _⟩ => show win0_1.index t (0 : Fin 2) * 3200 + 1 * p.val = t.val * 3200 + p.val; omega
  | ⟨1, _⟩ => show win0_1.index t (1 : Fin 2) * 256 + 1 * a.val = a.val; omega

theorem emb_score (t : Fin cfg0.N) (p : Fin 3200) (u : Fin 1) :
    ((cfg0.win 2).blk t).view.emb (ix2 p u) = ix2 (rowOf t p) u := by
  obtain ⟨-, -, -, -, e0, e1, -⟩ := idx_facts t
  funext d; apply Fin.ext
  match d with
  | ⟨0, _⟩ => show win0_2.index t (0 : Fin 2) * 3200 + 1 * p.val = t.val * 3200 + p.val; omega
  | ⟨1, _⟩ => show win0_2.index t (1 : Fin 2) * 1 + 1 * u.val = u.val; omega

theorem emb_w0 (t : Fin cfg0.N) (a b : Fin 256) : ((cfg0.win 3).blk t).view.emb (ix2 a b) = ix2 a b := by
  obtain ⟨-, -, -, -, -, -, e0, e1, -⟩ := idx_facts t
  funext d; apply Fin.ext
  match d with
  | ⟨0, _⟩ => show win0_3.index t (0 : Fin 2) * 256 + 1 * a.val = a.val; omega
  | ⟨1, _⟩ => show win0_3.index t (1 : Fin 2) * 256 + 1 * b.val = b.val; omega

theorem emb_w1 (t : Fin cfg0.N) (a b : Fin 256) : ((cfg0.win 4).blk t).view.emb (ix2 a b) = ix2 a b := by
  obtain ⟨-, -, -, -, -, -, -, -, e0, e1, -⟩ := idx_facts t
  funext d; apply Fin.ext
  match d with
  | ⟨0, _⟩ => show win0_4.index t (0 : Fin 2) * 256 + 1 * a.val = a.val; omega
  | ⟨1, _⟩ => show win0_4.index t (1 : Fin 2) * 256 + 1 * b.val = b.val; omega

theorem emb_w2 (t : Fin cfg0.N) (a : Fin 256) (b : Fin 64) : ((cfg0.win 5).blk t).view.emb (ix2 a b) = ix2 a b := by
  obtain ⟨-, -, -, -, -, -, -, -, -, -, e0, e1, -⟩ := idx_facts t
  funext d; apply Fin.ext
  match d with
  | ⟨0, _⟩ => show win0_5.index t (0 : Fin 2) * 256 + 1 * a.val = a.val; omega
  | ⟨1, _⟩ => show win0_5.index t (1 : Fin 2) * 64 + 1 * b.val = b.val; omega

theorem emb_wq (t : Fin cfg0.N) (a : Fin 64) (b : Fin 32) : ((cfg0.win 6).blk t).view.emb (ix2 a b) = ix2 a b := by
  obtain ⟨-, -, -, -, -, -, -, -, -, -, -, -, e0, e1, -⟩ := idx_facts t
  funext d; apply Fin.ext
  match d with
  | ⟨0, _⟩ => show win0_6.index t (0 : Fin 2) * 64 + 1 * a.val = a.val; omega
  | ⟨1, _⟩ => show win0_6.index t (1 : Fin 2) * 32 + 1 * b.val = b.val; omega

theorem emb_wk (t : Fin cfg0.N) (a : Fin 64) (b : Fin 32) : ((cfg0.win 7).blk t).view.emb (ix2 a b) = ix2 a b := by
  obtain ⟨-, -, -, -, -, -, -, -, -, -, -, -, -, -, e0, e1, -⟩ := idx_facts t
  funext d; apply Fin.ext
  match d with
  | ⟨0, _⟩ => show win0_7.index t (0 : Fin 2) * 64 + 1 * a.val = a.val; omega
  | ⟨1, _⟩ => show win0_7.index t (1 : Fin 2) * 32 + 1 * b.val = b.val; omega

theorem emb_out (t : Fin cfg0.N) (p : Fin 3200) (j : Fin 64) :
    ((cfg0.win 8).blk t).view.emb (ix2 p j) = ix2 (rowOf t p) j := by
  obtain ⟨-, -, -, -, -, -, -, -, -, -, -, -, -, -, -, -, e0, e1⟩ := idx_facts t
  funext d; apply Fin.ext
  match d with
  | ⟨0, _⟩ => show win0_8.index t (0 : Fin 2) * 3200 + 1 * p.val = t.val * 3200 + p.val; omega
  | ⟨1, _⟩ => show win0_8.index t (1 : Fin 2) * 64 + 1 * j.val = j.val; omega

/-! ## Each input block, read at an entry, is an entry of an argument array -/

theorem read_src (c : Dev nD) (t : Fin cfg0.N) (p : Fin 3200) (a : Fin 256) :
    iblk m c 0 t (ix2 p a) = m ((c.tc : Thread nD τ).loc main_arg0) (ix2 (rowOf t p) a) := by
  show V m c main_arg0 (((cfg0.win 0).blk t).view.emb (ix2 p a)) = _
  rw [emb_src t p a, V_main_arg0]

theorem read_nbr (c : Dev nD) (t : Fin cfg0.N) (p : Fin 3200) (a : Fin 256) :
    iblk m c 1 t (ix2 p a) = m ((c.tc : Thread nD τ).loc main_arg1) (ix2 (rowOf t p) a) := by
  show V m c main_arg1 (((cfg0.win 1).blk t).view.emb (ix2 p a)) = _
  rw [emb_nbr t p a, V_main_arg1]

theorem read_score (c : Dev nD) (t : Fin cfg0.N) (p : Fin 3200) :
    iblk m c 2 t (ix2 p (0 : Fin 1)) = m ((c.tc : Thread nD τ).loc main_arg2) (ix1 (rowOf t p)) := by
  show V m c main_v0 (((cfg0.win 2).blk t).view.emb (ix2 p (0 : Fin 1))) = _
  rw [emb_score t p 0, entry_score]
  exact Keepdims.shapeCast_a_a1_apply _ _ (rowOf t p) (0 : Fin 1)

theorem read_w0 (c : Dev nD) (t : Fin cfg0.N) (a b : Fin 256) :
    iblk m c 3 t (ix2 a b) = m ((c.tc : Thread nD τ).loc main_arg5) (ix2 a b) := by
  show V m c main_v1 (((cfg0.win 3).blk t).view.emb (ix2 a b)) = _
  rw [emb_w0 t a b, entry_w0]

theorem read_w1 (c : Dev nD) (t : Fin cfg0.N) (a b : Fin 256) :
    iblk m c 4 t (ix2 a b) = m ((c.tc : Thread nD τ).loc main_arg6) (ix2 a b) := by
  show V m c main_v2 (((cfg0.win 4).blk t).view.emb (ix2 a b)) = _
  rw [emb_w1 t a b, entry_w1]

theorem read_w2 (c : Dev nD) (t : Fin cfg0.N) (a : Fin 256) (b : Fin 64) :
    iblk m c 5 t (ix2 a b) = m ((c.tc : Thread nD τ).loc main_arg7) (ix2 a b) := by
  show V m c main_v3 (((cfg0.win 5).blk t).view.emb (ix2 a b)) = _
  rw [emb_w2 t a b, entry_w2]

theorem read_wq (c : Dev nD) (t : Fin cfg0.N) (a : Fin 64) (b : Fin 32) :
    iblk m c 6 t (ix2 a b) = m ((c.tc : Thread nD τ).loc main_arg8) (ix2 a b) := by
  show V m c main_v4 (((cfg0.win 6).blk t).view.emb (ix2 a b)) = _
  rw [emb_wq t a b, entry_wq]

theorem read_wk (c : Dev nD) (t : Fin cfg0.N) (a : Fin 64) (b : Fin 32) :
    iblk m c 7 t (ix2 a b) = m ((c.tc : Thread nD τ).loc main_arg9) (ix2 a b) := by
  show V m c main_v5 (((cfg0.win 7).blk t).view.emb (ix2 a b)) = _
  rw [emb_wk t a b, entry_wk]

/-! ## The output array -/

/-- The array of edge rows of the arguments as launched. -/
abbrev rows (c : Dev nD) : S400000x64.Idx → EReal :=
  weighted (m ((c.tc : Thread nD τ).loc main_arg0)) (m ((c.tc : Thread nD τ).loc main_arg1))
    (m ((c.tc : Thread nD τ).loc main_arg2)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))

/-- WHAT POINT `t` WRITES BACK is block `t` of the array of edge rows. -/
theorem flushed_eq (c : Dev nD) (t : Fin cfg0.N) :
    (dats m 0 c).flushed 8 t = ((cfg0.win 8).blk t).view.read (Elt Ideal) (rows m c) := by
  show (cfg0.win 8).cut (grid0.coords t) ((dats m 0 c).after 8 t) = _
  rw [after0_8]
  unfold out0_8
  rw [View.canon_unit_zero hz]
  simp only [View.ld_unit_zero (S := S3200x256) hz, View.ld_unit_zero (S := S3200x1) hz,
    View.ld_unit_zero (S := S256x256) hz, View.ld_unit_zero (S := S256x64) hz, View.ld_unit_zero (S := S64x32) hz]
  funext y
  obtain ⟨p, j, rfl⟩ : ∃ (p : Fin 3200) (j : Fin 64), y = ix2 p j := ⟨y 0, y 1, eq_ix2 y⟩
  show k0_pay1 (F := Ideal) _ _ _ _ (ix2 p j) = rows m c (((cfg0.win 8).blk t).view.emb (ix2 p j))
  rw [emb_out t p j]
  exact block_row (iblk m c 0 t) (iblk m c 1 t) (iblk m c 2 t) (iblk m c 3 t) (iblk m c 4 t) (iblk m c 5 t)
    (iblk m c 6 t) (iblk m c 7 t) _ _ _ _ _ _ _ _ (rowOf t p) p j
    (read_src m c t p) (read_nbr m c t p) (read_score m c t p) (read_w0 m c t) (read_w1 m c t) (read_w2 m c t)
    (read_wq m c t) (read_wk m c t)

/-- An index of the output array is in point `t`'s block iff each coordinate is in the block's range on its axis. -/
theorem mem_blk (t : Fin cfg0.N) (i : S400000x64.Idx) :
    i ∈ ((cfg0.win 8).blk t).view.set ↔ ∀ a : Fin 2, win0_8.index t a * S3200x64.size a ≤ (i a).val ∧ (i a).val < win0_8.index t a * S3200x64.size a + S3200x64.size a := by
  show i ∈ ((View.whole main_v6).slice (win0_8.rect t)).set ↔ _
  rw [View.set_slice_whole, Rect.mem_set_unit]
  exact Iff.rfl

/-- Every row is in some point's block: row `r` in point `r / 3200`'s. -/
theorem cover (i : S400000x64.Idx) :
    ∃ t : Fin cfg0.N, (cfg0.win 8).flush t = true ∧ i ∈ ((cfg0.win 8).blk t).view.set := by
  have hi0 : (i 0).val < 400000 := (i 0).isLt
  have hi1 : (i 1).val < 64 := (i 1).isLt
  have hN : (i 0).val / 3200 < cfg0.N := lt_of_lt_of_eq (by omega : (i 0).val / 3200 < 125) N_0.symm
  obtain ⟨-, -, -, -, -, -, -, -, -, -, -, -, -, -, -, -, e0, e1⟩ := idx_facts ⟨(i 0).val / 3200, hN⟩
  have e0' : win0_8.index ⟨(i 0).val / 3200, hN⟩ (0 : Fin 2) = (i 0).val / 3200 := e0
  refine ⟨⟨(i 0).val / 3200, hN⟩, flush0_8 _, ?_⟩
  rw [mem_blk]
  intro a
  match a with
  | ⟨0, _⟩ =>
    show win0_8.index ⟨(i 0).val / 3200, hN⟩ (0 : Fin 2) * 3200 ≤ (i 0).val ∧ (i 0).val < win0_8.index ⟨(i 0).val / 3200, hN⟩ (0 : Fin 2) * 3200 + 3200
    omega
  | ⟨1, _⟩ =>
    show win0_8.index ⟨(i 0).val / 3200, hN⟩ (1 : Fin 2) * 64 ≤ (i 1).val ∧ (i 1).val < win0_8.index ⟨(i 0).val / 3200, hN⟩ (1 : Fin 2) * 64 + 64
    omega

/-- THE OUTPUT ARRAY after the region: the array of edge rows. -/
theorem final (c : Dev nD) : (dats m 0 c).arrAt 8 cfg0.N = rows m c :=
  (dats m 0 c).arrAt_eq_of_cover 8 (rows m c) (fun t _ => flushed_eq m c t) cover

end Cert.EdgeRows.Kern

end
-- ==== Proof.KernelRun.lean ====
/-
  The kernel program's run with its result named.

  After the region the program adds the rows of the output array into 25000 segments, row `r` into the segment its
  index entry names, starting from zeros.  The region leaves the index array as launched and the output array at the
  array of edge rows, so the result is that segment sum of the edge rows; the argument arrays end as launched.
-/
import proofs.«155335_j76613626626624_1_alg».proof.Proof.KernelArray

noncomputable section

namespace Cert.EdgeRows.Kern

open Idealize.ShloMosaic Idealize.ShloMosaic.TcCoe Idealize.ShloMosaic.ValueIdx Idealize.ShloMosaic.StableHlo
open Idealize.SL.Sem
open Cert.KernelIdeal Cert.KernelIdeal.Gen Cert.EdgeRows

variable (m : (ℓ : Loc nD τ sig) → Buf (Elt Ideal) ℓ) (ρ : Dev nD → PrngReg)

/-- The segment sum of the array of edge rows, from zeros, by the index array as launched. -/
abbrev result (c : Dev nD) : S25000x64.Idx → EReal :=
  Host.scatterAdd (F := Ideal) scatter_S25000x64_S400000x1_S400000x64_1_0_0_1
    (broadcastInDim S25000x64 ![] bcast_S_S25000x64 (constant (F := Ideal) S_ .f32 0x00000000#32))
    (broadcastInDim S400000x1 ![0] bcast_S400000_S400000x1_0 (m ((c.tc : Thread nD τ).loc main_arg3)))
    (rows m c)

/-- The lines after the region leave the result buffer at the segment sum of the edge rows. -/
theorem tail_result (c : Dev nD) :
    Pipeline.afterTail₀ cfgs (dats m) 0 (V0 m) [hostOps1] c main_v9 = result m c := by
  have e6 : Pipeline.withArrays (cfgs 0).spec c (V0 m c) (fun w => (dats m 0 c).arrAt w (cfgs 0).N)
      (Proc.devRef .tc main_v6) = rows m c :=
    (Pipeline.withArrays_arr spec0 launch0.win.arr_inj c _ _ 8).trans (final m c)
  have e3 : Pipeline.withArrays (cfgs 0).spec c (V0 m c) (fun w => (dats m 0 c).arrAt w (cfgs 0).N)
      (Proc.devRef .tc main_arg3) = m ((c.tc : Thread nD τ).loc main_arg3) :=
    (Pipeline.withArrays_of_ne _ c (V0 m c) _ main_arg3
      (by exact (by decide : ∀ w, Pipeline.arrRef spec0 w ≠ main_arg3))).trans (V_main_arg3 m c)
  unfold Pipeline.afterTail₀
  show StableHlo.after hostOps1 _ (Proc.devRef .tc main_v9) = _
  after_results
  rw [e6, e3]

/-- THE RUN: every weakly fair execution of the program terminates with the result buffer at the segment sum of the
    edge rows of the arguments, and the arguments as launched. -/
theorem run : θ_run defs (onTc (τ := τ) (main (F := Ideal))) ⟨m, fun _ => 0, ρ⟩ fun r => ∀ c : Dev nD,
      r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    ⟨((h c).2 main_v9 (Pipeline.mem_restRefs_of main_v9 (by decide) (by decide))).trans (tail_result m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.EdgeRows.Kern

end
-- ==== Proof.lean ====
/-
  The kernel and its reference compute one function on the extended reals.

  Per edge (a row of the two 400000×256 feature arrays): a three-layer perceptron `x ↦ relu(relu(x·W0)·W1)·W2` of the
  source row and of the neighbour row, the inner product `ℓ` of their projections by `Wq` and `Wk`, the logistic factor
  `1 / (1 + e^(−ℓ))`, and the neighbour's perceptron row scaled by `factor · score`; then the rows are added into 25000
  segments by the index array.  The kernel does the per-edge part 3200 rows at a time and writes `0 − ℓ` where the
  reference negates; the reference works on whole arrays.  Both are `EdgeRows.weighted` of the arguments followed by
  the same segment sum:
    * `Proof/Spec.lean` states the per-edge function and the array of edge rows;
    * `Proof/RefValue.lean` reads the reference's stages at an index: its array of edge rows is `weighted`;
    * `Proof/KernelDots.lean`, `Proof/KernelRows.lean` read the kernel body's arithmetic at an entry of a block;
    * `Proof/KernelArray.lean` puts the 125 blocks together: the output array after the region is `weighted`;
    * `Proof/KernelRun.lean` carries that through the segment sum after the region.
  No step uses that the inputs are finite: sums and products are only regrouped by rows, never redistributed.
  The pass that idealized the kernel rewrote nothing, so that conjunct is `True`; the three programs' runs come from
  their generated frames and the reference's generated run.
-/
import proofs.«155335_j76613626626624_1_alg».proof.Defs
import proofs.«155335_j76613626626624_1_alg».proof.Proof.Gen.Kernel
import proofs.«155335_j76613626626624_1_alg».proof.Proof.Gen.Kernel.Skeleton
import proofs.«155335_j76613626626624_1_alg».proof.Proof.Gen.Kernel.Launch
import proofs.«155335_j76613626626624_1_alg».proof.Proof.Gen.Kernel.Points
import proofs.«155335_j76613626626624_1_alg».proof.Proof.Gen.Kernel.Frame
import proofs.«155335_j76613626626624_1_alg».proof.Proof.Gen.KernelIdeal
import proofs.«155335_j76613626626624_1_alg».proof.Proof.Gen.KernelIdeal.Skeleton
import proofs.«155335_j76613626626624_1_alg».proof.Proof.Gen.KernelIdeal.Launch
import proofs.«155335_j76613626626624_1_alg».proof.Proof.Gen.KernelIdeal.Points
import proofs.«155335_j76613626626624_1_alg».proof.Proof.Gen.KernelIdeal.Frame
import proofs.«155335_j76613626626624_1_alg».proof.Proof.Gen.ReferenceIdeal
import proofs.«155335_j76613626626624_1_alg».proof.Proof.Gen.ReferenceIdeal.Run
import proofs.«155335_j76613626626624_1_alg».proof.Proof.Gen.ReferenceIdeal.Read
import proofs.«155335_j76613626626624_1_alg».proof.Proof.Gen.Pre_finite_inputs
import proofs.«155335_j76613626626624_1_alg».proof.Proof.RefValue
import proofs.«155335_j76613626626624_1_alg».proof.Proof.KernelRun
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- And the reference: its run names its result too, which this claim drops. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten on the way to the extended reals. -/
theorem preserves : Cert.preserves_Kernel_KernelIdeal := trivial

/-- From memories that agree on the arguments both programs end with the segment sum, by the same index array from
    zeros, of `EdgeRows.weighted` of the arguments: the kernel's run says so of the kernel, and the reference's array of
    edge rows is `weighted` of its arguments, which are the kernel's. -/
theorem algebraic : Cert.algebraic_KernelIdeal_ReferenceIdeal := by
  intro m ρ m' ρ' _ hagree
  refine ⟨_, Cert.EdgeRows.Kern.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, -, a5, a6, a7, a8, a9⟩ := hagree c
  rw [Cert.ReferenceIdeal.Read.val_main_v26_eq]
  unfold Cert.ReferenceIdeal.Read.val_main_v26
  rw [Cert.EdgeRows.Ref.weighted_eq, a0, a1, a2, a3, a5, a6, a7, a8, a9]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
